-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3x3 : Shape := ⟨3, ![2000000, 3, 3]⟩
abbrev S2000000x4x3 : Shape := ⟨3, ![2000000, 4, 3]⟩
abbrev S_ : Shape := ⟨0, ![]⟩

class Facts : Prop where
  bcast_S_S2000000x3x3 : S_.BroadcastsInDim S2000000x3x3 (![] : Fin 0 → Fin S2000000x3x3.rank)
  reducesTo_S2000000x3x3_S_d0_1_2 : S2000000x3x3.ReducesTo [0, 1, 2] S_
  h_S_ : 0 < S_.numel
  bcast_S_S2000000x4x3 : S_.BroadcastsInDim S2000000x4x3 (![] : Fin 0 → Fin S2000000x4x3.rank)
  reducesTo_S2000000x4x3_S_d0_1_2 : S2000000x4x3.ReducesTo [0, 1, 2] S_

variable [Facts]

def fn {F : FTy → Type} [FloatOps F] (main_arg0 : FVec F S2000000x3x3 .f32) (main_arg1 : FVec F S2000000x4x3 .f32) : IVec S_ 1 :=
  let main_v0 : FVec F S2000000x3x3 .f32 := Host.absf main_arg0
  let main_cst : FVec F S_ .f32 := constant S_ .f32 0x7F800000#32
  let main_v1 : FVec F S2000000x3x3 .f32 := broadcastInDim S2000000x3x3 ![] bcast_S_S2000000x3x3 main_cst
  let main_v2 : IVec S2000000x3x3 1 := cmpf .olt main_v0 main_v1
  let main_c : IVec S_ 1 := constantI S_ 1 1#1
  let main_v3 : IVec S_ 1 := (fun x v => Host.reduce IntOp.andi x v reducesTo_S2000000x3x3_S_d0_1_2 h_S_) main_v2 main_c
  let main_v4 : FVec F S2000000x4x3 .f32 := Host.absf main_arg1
  let main_cst_0 : FVec F S_ .f32 := constant S_ .f32 0x7F800000#32
  let main_v5 : FVec F S2000000x4x3 .f32 := broadcastInDim S2000000x4x3 ![] bcast_S_S2000000x4x3 main_cst_0
  let main_v6 : IVec S2000000x4x3 1 := cmpf .olt main_v4 main_v5
  let main_c_1 : IVec S_ 1 := constantI S_ 1 1#1
  let main_v7 : IVec S_ 1 := (fun x v => Host.reduce IntOp.andi x v reducesTo_S2000000x4x3_S_d0_1_2 h_S_) main_v6 main_c_1
  let main_v8 : IVec S_ 1 := andi main_v3 main_v7
  main_v8
-- ==== Kernel.lean ====
abbrev S2000000x3x3 : Shape := ⟨3, ![2000000, 3, 3]⟩
abbrev S2000000x4x3 : Shape := ⟨3, ![2000000, 4, 3]⟩
abbrev S2000000x9 : Shape := ⟨2, ![2000000, 9]⟩
abbrev S2000000x12 : Shape := ⟨2, ![2000000, 12]⟩
abbrev S2x1x1 : Shape := ⟨3, ![2, 1, 1]⟩
abbrev S2000x9 : Shape := ⟨2, ![2000, 9]⟩
abbrev S2000x12 : Shape := ⟨2, ![2000, 12]⟩
abbrev S1x1x1 : Shape := ⟨3, ![1, 1, 1]⟩
abbrev S1x1 : Shape := ⟨2, ![1, 1]⟩
abbrev S2000x1 : Shape := ⟨2, ![2000, 1]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S2000000x3x3, .f32⟩
  | .hbm, ⟨1, _⟩ => ⟨S2000000x4x3, .f32⟩
  | .hbm, ⟨2, _⟩ => ⟨S2000000x9, .f32⟩
  | .hbm, ⟨3, _⟩ => ⟨S2000000x12, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2000x9, .f32⟩
  | .local _ .vmem, ⟨1, _⟩ => ⟨S2000x9, .f32⟩
  | .local _ .vmem, ⟨2, _⟩ => ⟨S2000x12, .f32⟩
  | .local _ .vmem, ⟨3, _⟩ => ⟨S2000x12, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S2000000x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 500], ![false, false]⟩

def k0_cond2 (i : grid0.Coords) : BitVec 1 :=
  let arg1 : BitVec 32 := BitVec.ofNat 32 (i 1).val
  let c499_i32 : BitVec 32 := 499#32
  let v187 : BitVec 1 := Scalar.cmpi .eq arg1 c499_i32
  let v188 : BitVec 32 := Scalar.extui v187
  let c0_i32_38 : BitVec 32 := 0#32
  let v189 : BitVec 1 := Scalar.cmpi .ne v188 c0_i32_38
  v189

def cc0_transform_0 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2000000x3x3_S2000000x9 : S2000000x3x3.ShapeCasts S2000000x9
  shapeCasts_S2000000x4x3_S2000000x12 : S2000000x4x3.ShapeCasts S2000000x12
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  slices_S2000x12_o0_0_S2000x1 : S2000x12.Slices ![0, 0] S2000x1
  slices_S2000x12_o0_1_S2000x1 : S2000x12.Slices ![0, 1] S2000x1
  slices_S2000x12_o0_2_S2000x1 : S2000x12.Slices ![0, 2] S2000x1
  slices_S2000x12_o0_3_S2000x1 : S2000x12.Slices ![0, 3] S2000x1
  slices_S2000x12_o0_4_S2000x1 : S2000x12.Slices ![0, 4] S2000x1
  slices_S2000x12_o0_5_S2000x1 : S2000x12.Slices ![0, 5] S2000x1
  slices_S2000x12_o0_6_S2000x1 : S2000x12.Slices ![0, 6] S2000x1
  slices_S2000x12_o0_7_S2000x1 : S2000x12.Slices ![0, 7] S2000x1
  slices_S2000x12_o0_8_S2000x1 : S2000x12.Slices ![0, 8] S2000x1
  slices_S2000x12_o0_9_S2000x1 : S2000x12.Slices ![0, 9] S2000x1
  slices_S2000x12_o0_10_S2000x1 : S2000x12.Slices ![0, 10] S2000x1
  slices_S2000x12_o0_11_S2000x1 : S2000x12.Slices ![0, 11] S2000x1
  slices_S2000x9_o0_0_S2000x1 : S2000x9.Slices ![0, 0] S2000x1
  slices_S2000x9_o0_1_S2000x1 : S2000x9.Slices ![0, 1] S2000x1
  slices_S2000x9_o0_2_S2000x1 : S2000x9.Slices ![0, 2] S2000x1
  slices_S2000x9_o0_3_S2000x1 : S2000x9.Slices ![0, 3] S2000x1
  slices_S2000x9_o0_4_S2000x1 : S2000x9.Slices ![0, 4] S2000x1
  slices_S2000x9_o0_5_S2000x1 : S2000x9.Slices ![0, 5] S2000x1
  slices_S2000x9_o0_6_S2000x1 : S2000x9.Slices ![0, 6] S2000x1
  slices_S2000x9_o0_7_S2000x1 : S2000x9.Slices ![0, 7] S2000x1
  slices_S2000x9_o0_8_S2000x1 : S2000x9.Slices ![0, 8] S2000x1
  reduces_S2000x1_S1 : S2000x1.Reduces [0] S1
  shapeCasts_S1_S1x1 : S1.ShapeCasts S1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S2000000x9.size a
  hwx0_0 : ∀ i : grid0.Coords, EltTy.bits .f32 = 32 ∨ (Rect.block (s := S2000000x9) S2000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x12.size a ≤ S2000000x12.size a
  hwx0_1 : ∀ i : grid0.Coords, EltTy.bits .f32 = 32 ∨ (Rect.block (s := S2000000x12) S2000x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2000000x3x3 : Shape := ⟨3, ![2000000, 3, 3]⟩
abbrev S2000000x4x3 : Shape := ⟨3, ![2000000, 4, 3]⟩
abbrev S2000000x1x3 : Shape := ⟨3, ![2000000, 1, 3]⟩
abbrev S3x3 : Shape := ⟨2, ![3, 3]⟩
abbrev S_ : Shape := ⟨0, ![]⟩
abbrev S1x3x3 : Shape := ⟨3, ![1, 3, 3]⟩

abbrev nBuf : Space → Nat
  | .hbm => 23
  | .vmem => 0
  | .smem => 0
  | _ => 0

abbrev bufTy : (tb : Table) → Fin (tcTables nBuf tb) → BufTy
  | .hbm, ⟨0, _⟩ => ⟨S2000000x3x3, .f32⟩
  | .hbm, ⟨1, _⟩ => ⟨S2000000x4x3, .f32⟩
  | .hbm, ⟨2, _⟩ => ⟨S2000000x3x3, .f32⟩
  | .hbm, ⟨3, _⟩ => ⟨S2000000x1x3, .f32⟩
  | .hbm, ⟨4, _⟩ => ⟨S2000000x3x3, .f32⟩
  | .hbm, ⟨5, _⟩ => ⟨S2000000x3x3, .f32⟩
  | .hbm, ⟨6, _⟩ => ⟨S2000000x3x3, .f32⟩
  | .hbm, ⟨7, _⟩ => ⟨S2000000x3x3, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S1x3x3, .f32⟩
  | .hbm, ⟨16, _⟩ => ⟨S2000000x3x3, .f32⟩
  | .hbm, ⟨17, _⟩ => ⟨S2000000x3x3, .f32⟩
  | .hbm, ⟨18, _⟩ => ⟨S2000000x3x3, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S2000000x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  slices_S2000000x4x3_S2000000x3x3_0_1_0 : S2000000x4x3.Slices ![0, 1, 0] S2000000x3x3
  slices_S2000000x4x3_S2000000x1x3_0_0_0 : S2000000x4x3.Slices ![0, 0, 0] S2000000x1x3
  bcast_S2000000x1x3_S2000000x3x3_0_1_2 : S2000000x1x3.BroadcastsInDim S2000000x3x3 (![0, 1, 2] : Fin 3 → Fin S2000000x3x3.rank)
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S2000000x3x3_0_1_2 : S1x3x3.BroadcastsInDim S2000000x3x3 (![0, 1, 2] : Fin 3 → Fin S2000000x3x3.rank)
  reducesTo_S2000000x3x3_S_d0_1_2 : S2000000x3x3.ReducesTo [0, 1, 2] S_
  h_S_ : 0 < S_.numel
  dot_S2000000x3x3_S2000000x3x3_S2000000x3x3_2_1_1_2_0_0_wf : DotDims.WF S2000000x3x3 S2000000x3x3 S2000000x3x3 [2] [1] [1] [2] [0] [0]
  dot_S2000000x3x3_S2000000x3x3_S2000000x3x3_1_1_2_2_0_0_wf : DotDims.WF S2000000x3x3 S2000000x3x3 S2000000x3x3 [1] [1] [2] [2] [0] [0]

variable [Facts₀]

def dot_S2000000x3x3_S2000000x3x3_S2000000x3x3_2_1_1_2_0_0 : DotDims S2000000x3x3 S2000000x3x3 S2000000x3x3 where
  lhsContracting := [2]
  rhsContracting := [1]
  lhsNonContracting := [1]
  rhsNonContracting := [2]
  lhsBatch := [0]
  rhsBatch := [0]
  wf := dot_S2000000x3x3_S2000000x3x3_S2000000x3x3_2_1_1_2_0_0_wf
def dot_S2000000x3x3_S2000000x3x3_S2000000x3x3_1_1_2_2_0_0 : DotDims S2000000x3x3 S2000000x3x3 S2000000x3x3 where
  lhsContracting := [1]
  rhsContracting := [1]
  lhsNonContracting := [2]
  rhsNonContracting := [2]
  lhsBatch := [0]
  rhsBatch := [0]
  wf := dot_S2000000x3x3_S2000000x3x3_S2000000x3x3_1_1_2_2_0_0_wf

class Facts : Prop extends Facts₀ where

variable [Facts]
-- ==== Proof.Pieces.lean ====
/-
  What one grid point leaves behind, as a value.

  The body reads its two input blocks (2000 tetrahedra: the nine entries of each inverse edge matrix, the
  twelve vertex coordinates), computes the 2000 per-tetrahedron losses, sums them, and adds the sum to a
  one-element accumulator: `step`. At the first point of each half of the grid it first overwrites the
  accumulator with zero, so it leaves `step` of the zero; at the last point it also copies the accumulator
  to the output block. These are read off the stores the run of each case found.
-/
import proofs.«139770_j53867479827007_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- One grid point's update of the running sum: the body's arithmetic from the two input blocks and the
    accumulator it loads, as the value it stores back. -/
def step (x0 : Vec F S2000x9 .f32) (x1 : Vec F S2000x12 .f32) (acc : Vec F S1x1x1 .f32) : Vec F S1x1x1 .f32 :=
  let v11 := k0_pay7 x1
  let v13 := k0_pay8 x1
  let v15 := k0_pay9 x1
  let v17 := k0_pay10 x1
  let v19 := k0_pay11 x1
  let v21 := k0_pay12 x1
  let v23 := k0_pay13 x1
  let v25 := k0_pay14 x1
  let v27 := k0_pay15 x1
  let v28 := k0_pay16 x0
  let v29 := k0_pay17 x0
  let v30 := k0_pay18 x0
  let v31 := k0_pay19 x0
  let v32 := k0_pay20 x0
  let v33 := k0_pay21 x0
  let v34 := k0_pay22 x0
  let v35 := k0_pay23 x0
  let v36 := k0_pay24 x0
  let v43 := k0_pay25 x0 x1
  let v48 := k0_pay26 x0 x1
  let v50 := k0_pay27 v25 v30 v48
  let v57 := k0_pay28 v15 v21 v27 v28 v29 v30
  let v64 := k0_pay29 v11 v17 v23 v31 v32 v33
  let v71 := k0_pay30 v13 v19 v25 v31 v32 v33
  let v78 := k0_pay31 v15 v21 v27 v31 v32 v33
  let v85 := k0_pay32 v11 v17 v23 v34 v35 v36
  let v92 := k0_pay33 v13 v19 v25 v34 v35 v36
  let v99 := k0_pay34 v15 v21 v27 v34 v35 v36
  let v139 := k0_pay36 v43 v50 v57 v64 v71 v78 v85 v92 v99 (k0_pay35 (F := F))
  let v149 := k0_pay37 v50 v71 v92
  k0_pay38 v50 v57 v71 v78 v92 v99 v139 v149 acc

/-- The zero the first point of each half stores into the accumulator before adding its block. -/
abbrev zeroAcc : Vec F S1x1x1 .f32 := k0_pay1 (F := F)

/-- A point that is neither first nor last of its half leaves `step` of what it found in the accumulator. -/
theorem sout_B (c : Dev nD) (i : grid0.Coords) (a2 : Memref sig .tc .vmem S2000x9 .f32) (h2 : a2.IsWhole) (a3 : Memref sig .tc .vmem S2000x12 .f32) (h3 : a3.IsWhole) (a4 : Memref sig .tc .vmem S1x1x1 .f32) (h4 : a4.IsWhole) (a5 : Memref sig .tc .vmem S1x1x1 .f32) (h5 : a5.IsWhole) (hc0 : ¬cond0_0 i) (hc1 : ¬cond0_1 i)
    (x0 : Vec F S2000x9 .f32) (x1 : Vec F S2000x12 .f32) (xs0 : Vec F S1x1x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread, View.ld_unit_zero (S := S2000x9) hz2, View.ld_unit_zero (S := S2000x12) hz2, View.ld_unit_zero (S := S1x1x1) hz3]
  rfl

/-- The last point of a half leaves the same in the accumulator, -/
theorem sout_C (c : Dev nD) (i : grid0.Coords) (a2 : Memref sig .tc .vmem S2000x9 .f32) (h2 : a2.IsWhole) (a3 : Memref sig .tc .vmem S2000x12 .f32) (h3 : a3.IsWhole) (a4 : Memref sig .tc .vmem S1x1x1 .f32) (h4 : a4.IsWhole) (a5 : Memref sig .tc .vmem S1x1x1 .f32) (h5 : a5.IsWhole) (hc0 : ¬cond0_0 i) (hc1 : cond0_1 i)
    (x0 : Vec F S2000x9 .f32) (x1 : Vec F S2000x12 .f32) (xs0 : Vec F S1x1x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S2000x9) hz2, View.ld_unit_zero (S := S2000x12) hz2, View.ld_unit_zero (S := S1x1x1) hz3]
  rfl

/-- and copies it to the output block. -/
theorem out_C (c : Dev nD) (i : grid0.Coords) (a2 : Memref sig .tc .vmem S2000x9 .f32) (h2 : a2.IsWhole) (a3 : Memref sig .tc .vmem S2000x12 .f32) (h3 : a3.IsWhole) (a4 : Memref sig .tc .vmem S1x1x1 .f32) (h4 : a4.IsWhole) (a5 : Memref sig .tc .vmem S1x1x1 .f32) (h5 : a5.IsWhole) (hc0 : ¬cond0_0 i) (hc1 : cond0_1 i)
    (x0 : Vec F S2000x9 .f32) (x1 : Vec F S2000x12 .f32) (xs0 : Vec F S1x1x1 .f32) :
    out0_C_2 c i a2 h2 a3 h3 a4 h4 a5 h5 hc0 hc1 x0 x1 xs0 = step x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1x1) _ hz3]
  simp only [View.readAt_eq_ld, h2.read_unread, h3.read_unread, h5.read_unread, View.ld_unit_zero (S := S2000x9) hz2, View.ld_unit_zero (S := S2000x12) hz2, View.ld_unit_zero (S := S1x1x1) hz3]
  rfl

/-- The first point of a half stores the zero, reads it back and leaves `step` of it. -/
theorem sout_A (c : Dev nD) (i : grid0.Coords) (a2 : Memref sig .tc .vmem S2000x9 .f32) (h2 : a2.IsWhole) (a3 : Memref sig .tc .vmem S2000x12 .f32) (h3 : a3.IsWhole) (a4 : Memref sig .tc .vmem S1x1x1 .f32) (h4 : a4.IsWhole) (a5 : Memref sig .tc .vmem S1x1x1 .f32) (h5 : a5.IsWhole) (hc0 : cond0_0 i) (hc1 : ¬cond0_1 i)
    (x0 : Vec F S2000x9 .f32) (x1 : Vec F S2000x12 .f32) :
    sout0_A_0 c i a2 h2 a3 h3 a4 h4 a5 h5 hc0 hc1 x0 x1 = step x0 x1 zeroAcc := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S2000x9) hz2, View.ld_unit_zero (S := S2000x12) hz2]
  rfl

end Cert.KernelIdeal.Body
end
-- ==== Proof.RowLaw.lean ====
/-
  The algebra of the mesh loss on the extended reals, with no program in sight.

  For one tetrahedron, with `a` the inverse reference edge matrix and `b` the four deformed vertices,
  the edge matrix is `d j k = b (j+1) k - b 0 k`, the affine map `A = a · d`, its Gram matrix
  `G = Aᵀ A`, and the loss `‖G - I‖²` summed over all nine entries. The streaming form keeps only
  the six entries on or above the diagonal and doubles the three strictly above it; it also starts
  every three-term sum from a zero and subtracts a zero off the diagonal. The two agree on every
  extended real: `G` is symmetric because multiplication commutes, `2 · y = y + y` also at the
  infinities, and the rest is associativity and commutativity of addition, which hold on the
  extended reals without any finiteness.

  The second half regroups a sum over `a · b` consecutive naturals into `a` blocks of `b`, and a
  running sum restarted at the multiples of a period into the sum over the current period.
-/
import Mathlib.Data.EReal.Inv
import Mathlib.Algebra.BigOperators.Fin
import Mathlib.Algebra.BigOperators.Intervals
import Mathlib.Tactic.Abel
import Mathlib.Tactic.NormNum

noncomputable section

namespace MeshLoss

open Finset

/-- Twice an extended real is its sum with itself, also at the two infinities. -/
theorem two_mul_ereal (y : EReal) : (2 : EReal) * y = y + y := by
  induction y using EReal.rec with
  | bot => rw [EReal.mul_bot_of_pos (by norm_num)]; rfl
  | coe r =>
    show ((2 : ℝ) : EReal) * (r : EReal) = (r : EReal) + (r : EReal)
    rw [← EReal.coe_mul, ← EReal.coe_add, two_mul]
  | top => rw [EReal.mul_top_of_pos (by norm_num)]; rfl

/-- The deformed edge matrix: vertex `j + 1` minus vertex `0`, coordinate by coordinate. -/
def edge (b : Fin 4 → Fin 3 → EReal) (j k : Fin 3) : EReal := b j.succ k - b 0 k

/-- The affine map `A = a · d`. -/
def aff (a : Fin 3 → Fin 3 → EReal) (b : Fin 4 → Fin 3 → EReal) (i k : Fin 3) : EReal :=
  ∑ j : Fin 3, a i j * edge b j k

/-- The Gram matrix `G = Aᵀ A`. -/
def gram (A : Fin 3 → Fin 3 → EReal) (i k : Fin 3) : EReal := ∑ j : Fin 3, A j i * A j k

/-- One entry of `(G - I)²`. -/
def dev (A : Fin 3 → Fin 3 → EReal) (i k : Fin 3) : EReal :=
  (gram A i k - (if i = k then 1 else 0)) * (gram A i k - (if i = k then 1 else 0))

/-- The loss of one tetrahedron: `‖G - I‖²` over all nine entries. -/
def rowLoss (a : Fin 3 → Fin 3 → EReal) (b : Fin 4 → Fin 3 → EReal) : EReal :=
  ∑ i : Fin 3, ∑ k : Fin 3, dev (aff a b) i k

/-- A three-term sum started from the constant `z`. -/
def acc3 (z x0 y0 x1 y1 x2 y2 : EReal) : EReal := ((z + x0 * y0) + x1 * y1) + x2 * y2

/-- The streaming form's `A`. -/
def kA (z : EReal) (a : Fin 3 → Fin 3 → EReal) (b : Fin 4 → Fin 3 → EReal) (i k : Fin 3) : EReal :=
  acc3 z (a i 0) (edge b 0 k) (a i 1) (edge b 1 k) (a i 2) (edge b 2 k)

/-- The streaming form's `G`. -/
def kG (z : EReal) (A : Fin 3 → Fin 3 → EReal) (i k : Fin 3) : EReal :=
  acc3 z (A 0 i) (A 0 k) (A 1 i) (A 1 k) (A 2 i) (A 2 k)

/-- A weighted squared deviation `w · (g - τ)²`. -/
def wsq (w τ g : EReal) : EReal := w * ((g - τ) * (g - τ))

/-- The streaming form of one tetrahedron's loss, over the constants `z` (zero), `o` (one), `t` (two):
    the six entries on or above the diagonal, in row order. -/
def kerRow (z o t : EReal) (a : Fin 3 → Fin 3 → EReal) (b : Fin 4 → Fin 3 → EReal) : EReal :=
  (((((z + wsq o o (kG z (kA z a b) 0 0)) + wsq t z (kG z (kA z a b) 0 1)) + wsq t z (kG z (kA z a b) 0 2))
    + wsq o o (kG z (kA z a b) 1 1)) + wsq t z (kG z (kA z a b) 1 2)) + wsq o o (kG z (kA z a b) 2 2)

theorem kA_eq (a : Fin 3 → Fin 3 → EReal) (b : Fin 4 → Fin 3 → EReal) (i k : Fin 3) :
    kA 0 a b i k = aff a b i k := by
  unfold kA aff acc3
  rw [Fin.sum_univ_three, zero_add]

theorem kG_eq (A : Fin 3 → Fin 3 → EReal) (i k : Fin 3) : kG 0 A i k = gram A i k := by
  unfold kG gram acc3
  rw [Fin.sum_univ_three, zero_add]

theorem gram_symm (A : Fin 3 → Fin 3 → EReal) (i k : Fin 3) : gram A i k = gram A k i := by
  unfold gram
  exact Finset.sum_congr rfl fun j _ => mul_comm _ _

theorem dev_symm (A : Fin 3 → Fin 3 → EReal) (i k : Fin 3) (h : i ≠ k) : dev A k i = dev A i k := by
  unfold dev
  rw [gram_symm A k i, if_neg h, if_neg (Ne.symm h)]

/-- The streaming form is the loss. -/
theorem kerRow_eq (a : Fin 3 → Fin 3 → EReal) (b : Fin 4 → Fin 3 → EReal) :
    kerRow 0 1 2 a b = rowLoss a b := by
  have hA : kA 0 a b = aff a b := funext fun i => funext fun k => kA_eq a b i k
  have hd : ∀ i : Fin 3, wsq 1 1 (gram (aff a b) i i) = dev (aff a b) i i := fun i => by
    unfold wsq dev; rw [one_mul, if_pos rfl]
  have ho : ∀ i k : Fin 3, i ≠ k → wsq 2 0 (gram (aff a b) i k) = dev (aff a b) i k + dev (aff a b) k i := fun i k h => by
    rw [dev_symm _ i k h]
    unfold wsq dev; rw [two_mul_ereal, if_neg h, sub_zero]
  unfold kerRow rowLoss
  rw [hA]
  simp only [kG_eq]
  rw [hd 0, hd 1, hd 2, ho 0 1 (by decide), ho 0 2 (by decide), ho 1 2 (by decide), zero_add]
  simp only [Fin.sum_univ_three]
  abel

/-! ## Sums over blocks of consecutive naturals -/

/-- A sum over `a · b` consecutive naturals is `a` block sums of `b`. -/
theorem sum_range_mul_blocks (f : ℕ → EReal) (a b : ℕ) :
    ∑ n ∈ range (a * b), f n = ∑ i ∈ range a, ∑ j ∈ range b, f (i * b + j) := by
  induction a with
  | zero => simp
  | succ a ih => rw [Nat.succ_mul, Finset.sum_range_add, ih, Finset.sum_range_succ]

/-- The block sum of block `t`: `L` consecutive terms from `t · L`. -/
def blockSum (f : ℕ → EReal) (L t : ℕ) : EReal := ∑ r ∈ range L, f (t * L + r)

/-- A running sum of block sums restarted at every multiple of `P`: after block `t` it holds the blocks of
    `t`'s period up to `t`. -/
def running (f : ℕ → EReal) (L P t : ℕ) : EReal := ∑ s ∈ range (t % P + 1), blockSum f L (t / P * P + s)

theorem running_restart (f : ℕ → EReal) (L P t : ℕ) (h : t % P = 0) :
    running f L P t = blockSum f L t := by
  unfold running
  rw [h, Finset.sum_range_one, Nat.add_zero]
  congr 1
  have := Nat.div_add_mod t P
  rw [h] at this
  rw [Nat.mul_comm]; omega

theorem running_step (f : ℕ → EReal) (L P t : ℕ) (hP : 0 < P) (h : t % P ≠ 0) :
    running f L P t = running f L P (t - 1) + blockSum f L t := by
  have ht : 0 < t := Nat.pos_of_ne_zero fun h0 => h (by rw [h0, Nat.zero_mod])
  have h3 := Nat.mod_lt t hP
  have e : t - 1 = P * (t / P) + (t % P - 1) := by have h1 := Nat.div_add_mod t P; omega
  have hd : (t - 1) / P = t / P := by
    rw [e, Nat.mul_add_div hP, Nat.div_eq_of_lt (a := t % P - 1) (b := P) (by omega), Nat.add_zero]
  have hm : (t - 1) % P + 1 = t % P := by
    rw [e, Nat.mul_add_mod, Nat.mod_eq_of_lt (a := t % P - 1) (b := P) (by omega)]; omega
  unfold running
  rw [hd, hm]
  obtain ⟨u, hu⟩ : ∃ u, t % P = u + 1 := ⟨t % P - 1, by omega⟩
  rw [hu, Finset.sum_range_succ]
  congr 2
  have := Nat.div_add_mod t P
  rw [Nat.mul_comm]; omega

theorem running_last (f : ℕ → EReal) (L P c : ℕ) (hP : 0 < P) :
    running f L P (c * P + (P - 1)) = ∑ s ∈ range P, blockSum f L (c * P + s) := by
  unfold running
  have h1 : (c * P + (P - 1)) % P = P - 1 := by
    rw [Nat.mul_comm, Nat.mul_add_mod, Nat.mod_eq_of_lt (by omega)]
  have h2 : (c * P + (P - 1)) / P = c := by
    rw [Nat.mul_comm, Nat.mul_add_div hP, Nat.div_eq_of_lt (by omega), Nat.add_zero]
  rw [h1, h2, Nat.sub_add_cancel hP]

end MeshLoss

end
-- ==== Proof.StepValue.lean ====
/-
  One grid point's update, read as numbers.

  At the exact instance the update `step x0 x1 acc` of Pieces.lean is, at its one index, the accumulator's
  value plus the sum over the block's 2000 rows of the streaming form of one tetrahedron's loss
  (RowLaw.lean's `kerRow`), taken at that row's nine inverse-matrix entries (columns `3 i + j` of the
  first block) and twelve vertex coordinates (columns `3 v + j` of the second). The row reduction starts
  from the additive identity, so it contributes no initial term.
-/
import proofs.«139770_j53867479827007_1_alg».proof.Proof.Pieces
import proofs.«139770_j53867479827007_1_alg».proof.Proof.RowLaw
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Body
open Cert.KernelIdeal Cert.KernelIdeal.Gen

/-- The three float constants of the body: zero, one and two, as their words denote. -/
abbrev cZ : EReal := Ideal.ofBits .f32 0x00000000#32
abbrev cO : EReal := Ideal.ofBits .f32 0x3F800000#32
abbrev cT : EReal := Ideal.ofBits .f32 0x40000000#32

/-- Row `r` of a block of inverse edge matrices, as a 3×3 matrix: entry `(i, j)` sits in column `3 i + j`. -/
def invRow (x0 : Vec Ideal S2000x9 .f32) (r : Fin 2000) (i j : Fin 3) : EReal :=
  x0 (ix2 r ⟨3 * i.val + j.val, by have := i.isLt; have := j.isLt; omega⟩)

/-- Row `r` of a block of vertices, as a 4×3 matrix: coordinate `j` of vertex `v` sits in column `3 v + j`. -/
def vertRow (x1 : Vec Ideal S2000x12 .f32) (r : Fin 2000) (v : Fin 4) (j : Fin 3) : EReal :=
  x1 (ix2 r ⟨3 * v.val + j.val, by have := v.isLt; have := j.isLt; omega⟩)

/-! ## The one-element shapes -/

theorem cast_2to3 {α : Type} (v : S1x1.Idx → α) (h : S1x1.ShapeCasts S1x1x1) (j : S1x1x1.Idx) :
    shapeCast S1x1x1 v h j = v (ix2 0 0) :=
  shapeCast_apply v h j (ix2 0 0) (by
    rw [Shape.rowMajor_val_two, Shape.rowMajor_val_three]
    have h0 : (j 0).val < 1 := (j 0).isLt
    have h1 : (j 1).val < 1 := (j 1).isLt
    have h2 : (j 2).val < 1 := (j 2).isLt
    show 0 * 1 + 0 = ((j 0).val * 1 + (j 1).val) * 1 + (j 2).val
    omega)

theorem cast_3to2 {α : Type} (v : S1x1x1.Idx → α) (h : S1x1x1.ShapeCasts S1x1) (j : S1x1.Idx) :
    shapeCast S1x1 v h j = v (ix3 0 0 0) :=
  shapeCast_apply v h j (ix3 0 0 0) (by
    rw [Shape.rowMajor_val_two, Shape.rowMajor_val_three]
    have h0 : (j 0).val < 1 := (j 0).isLt
    have h1 : (j 1).val < 1 := (j 1).isLt
    show (0 * 1 + 0) * 1 + 0 = (j 0).val * 1 + (j 1).val
    omega)

theorem cast_1to2 {α : Type} (v : S1.Idx → α) (h : S1.ShapeCasts S1x1) (j : S1x1.Idx) :
    shapeCast S1x1 v h j = v (ix1 0) :=
  shapeCast_apply v h j (ix1 0) (by
    rw [Shape.rowMajor_val_two, Shape.rowMajor_val_one]
    have h0 : (j 0).val < 1 := (j 0).isLt
    have h1 : (j 1).val < 1 := (j 1).isLt
    show 0 = (j 0).val * 1 + (j 1).val
    omega)

/-- The sum over the rows of a one-column block, from the additive identity. -/
theorem colSum (src : FVec Ideal S2000x1 .f32) (h : S2000x1.Reduces [0] S1) (hφ : FKind.Formats .f32)
    (hacc : (0x00000000#32 : BitVec 32) = FKind.add.neutral .f32 hφ) (j : S1.Idx) :
    multiReduction .add [0] S1 src 0x00000000#32 h hφ hacc j = ∑ r : Fin 2000, src (ix2 r 0) := by
  refine (Ideal.multiReduction_add_single src 0x00000000#32 h hφ hacc j).trans ?_
  refine Finset.sum_congr rfl fun r _ => congrArg src ?_
  funext a
  apply Fin.ext
  match a with
  | ⟨0, _⟩ => rfl
  | ⟨1, _⟩ =>
    exact Nat.lt_one_iff.mp (j ⟨0, _⟩).isLt

/-! ## The columns -/

theorem pay2_eq (x0 : Vec Ideal S2000x9 .f32) : k0_pay2 x0 = x0 := shapeCast_self _ _
theorem pay3_eq (x1 : Vec Ideal S2000x12 .f32) : k0_pay3 x1 = x1 := shapeCast_self _ _

theorem pay4_apply (x1 : Vec Ideal S2000x12 .f32) (r : Fin 2000) : k0_pay4 x1 (ix2 r 0) = vertRow x1 r 0 0 := by
  unfold k0_pay4; rw [pay3_eq]; exact slice2_axis1_apply 0 x1 _ r 0 _ rfl
theorem pay5_apply (x1 : Vec Ideal S2000x12 .f32) (r : Fin 2000) : k0_pay5 x1 (ix2 r 0) = vertRow x1 r 0 1 := by
  unfold k0_pay5; rw [pay3_eq]; exact slice2_axis1_apply 1 x1 _ r 0 _ rfl
theorem pay6_apply (x1 : Vec Ideal S2000x12 .f32) (r : Fin 2000) : k0_pay6 x1 (ix2 r 0) = vertRow x1 r 0 2 := by
  unfold k0_pay6; rw [pay3_eq]; exact slice2_axis1_apply 2 x1 _ r 0 _ rfl

theorem pay7_apply (x1 : Vec Ideal S2000x12 .f32) (r : Fin 2000) :
    k0_pay7 x1 (ix2 r 0) = vertRow x1 r 1 0 - vertRow x1 r 0 0 := by
  unfold k0_pay7; rw [pay3_eq]
  exact congrArg₂ (· - ·) (slice2_axis1_apply 3 x1 _ r 0 _ rfl) (pay4_apply x1 r)
theorem pay8_apply (x1 : Vec Ideal S2000x12 .f32) (r : Fin 2000) :
    k0_pay8 x1 (ix2 r 0) = vertRow x1 r 1 1 - vertRow x1 r 0 1 := by
  unfold k0_pay8; rw [pay3_eq]
  exact congrArg₂ (· - ·) (slice2_axis1_apply 4 x1 _ r 0 _ rfl) (pay5_apply x1 r)
theorem pay9_apply (x1 : Vec Ideal S2000x12 .f32) (r : Fin 2000) :
    k0_pay9 x1 (ix2 r 0) = vertRow x1 r 1 2 - vertRow x1 r 0 2 := by
  unfold k0_pay9; rw [pay3_eq]
  exact congrArg₂ (· - ·) (slice2_axis1_apply 5 x1 _ r 0 _ rfl) (pay6_apply x1 r)
theorem pay10_apply (x1 : Vec Ideal S2000x12 .f32) (r : Fin 2000) :
    k0_pay10 x1 (ix2 r 0) = vertRow x1 r 2 0 - vertRow x1 r 0 0 := by
  unfold k0_pay10; rw [pay3_eq]
  exact congrArg₂ (· - ·) (slice2_axis1_apply 6 x1 _ r 0 _ rfl) (pay4_apply x1 r)
theorem pay11_apply (x1 : Vec Ideal S2000x12 .f32) (r : Fin 2000) :
    k0_pay11 x1 (ix2 r 0) = vertRow x1 r 2 1 - vertRow x1 r 0 1 := by
  unfold k0_pay11; rw [pay3_eq]
  exact congrArg₂ (· - ·) (slice2_axis1_apply 7 x1 _ r 0 _ rfl) (pay5_apply x1 r)
theorem pay12_apply (x1 : Vec Ideal S2000x12 .f32) (r : Fin 2000) :
    k0_pay12 x1 (ix2 r 0) = vertRow x1 r 2 2 - vertRow x1 r 0 2 := by
  unfold k0_pay12; rw [pay3_eq]
  exact congrArg₂ (· - ·) (slice2_axis1_apply 8 x1 _ r 0 _ rfl) (pay6_apply x1 r)
theorem pay13_apply (x1 : Vec Ideal S2000x12 .f32) (r : Fin 2000) :
    k0_pay13 x1 (ix2 r 0) = vertRow x1 r 3 0 - vertRow x1 r 0 0 := by
  unfold k0_pay13; rw [pay3_eq]
  exact congrArg₂ (· - ·) (slice2_axis1_apply 9 x1 _ r 0 _ rfl) (pay4_apply x1 r)
theorem pay14_apply (x1 : Vec Ideal S2000x12 .f32) (r : Fin 2000) :
    k0_pay14 x1 (ix2 r 0) = vertRow x1 r 3 1 - vertRow x1 r 0 1 := by
  unfold k0_pay14; rw [pay3_eq]
  exact congrArg₂ (· - ·) (slice2_axis1_apply 10 x1 _ r 0 _ rfl) (pay5_apply x1 r)
theorem pay15_apply (x1 : Vec Ideal S2000x12 .f32) (r : Fin 2000) :
    k0_pay15 x1 (ix2 r 0) = vertRow x1 r 3 2 - vertRow x1 r 0 2 := by
  unfold k0_pay15; rw [pay3_eq]
  exact congrArg₂ (· - ·) (slice2_axis1_apply 11 x1 _ r 0 _ rfl) (pay6_apply x1 r)

theorem pay16_apply (x0 : Vec Ideal S2000x9 .f32) (r : Fin 2000) : k0_pay16 x0 (ix2 r 0) = invRow x0 r 0 0 := by
  unfold k0_pay16; rw [pay2_eq]; exact slice2_axis1_apply 0 x0 _ r 0 _ rfl
theorem pay17_apply (x0 : Vec Ideal S2000x9 .f32) (r : Fin 2000) : k0_pay17 x0 (ix2 r 0) = invRow x0 r 0 1 := by
  unfold k0_pay17; rw [pay2_eq]; exact slice2_axis1_apply 1 x0 _ r 0 _ rfl
theorem pay18_apply (x0 : Vec Ideal S2000x9 .f32) (r : Fin 2000) : k0_pay18 x0 (ix2 r 0) = invRow x0 r 0 2 := by
  unfold k0_pay18; rw [pay2_eq]; exact slice2_axis1_apply 2 x0 _ r 0 _ rfl
theorem pay19_apply (x0 : Vec Ideal S2000x9 .f32) (r : Fin 2000) : k0_pay19 x0 (ix2 r 0) = invRow x0 r 1 0 := by
  unfold k0_pay19; rw [pay2_eq]; exact slice2_axis1_apply 3 x0 _ r 0 _ rfl
theorem pay20_apply (x0 : Vec Ideal S2000x9 .f32) (r : Fin 2000) : k0_pay20 x0 (ix2 r 0) = invRow x0 r 1 1 := by
  unfold k0_pay20; rw [pay2_eq]; exact slice2_axis1_apply 4 x0 _ r 0 _ rfl
theorem pay21_apply (x0 : Vec Ideal S2000x9 .f32) (r : Fin 2000) : k0_pay21 x0 (ix2 r 0) = invRow x0 r 1 2 := by
  unfold k0_pay21; rw [pay2_eq]; exact slice2_axis1_apply 5 x0 _ r 0 _ rfl
theorem pay22_apply (x0 : Vec Ideal S2000x9 .f32) (r : Fin 2000) : k0_pay22 x0 (ix2 r 0) = invRow x0 r 2 0 := by
  unfold k0_pay22; rw [pay2_eq]; exact slice2_axis1_apply 6 x0 _ r 0 _ rfl
theorem pay23_apply (x0 : Vec Ideal S2000x9 .f32) (r : Fin 2000) : k0_pay23 x0 (ix2 r 0) = invRow x0 r 2 1 := by
  unfold k0_pay23; rw [pay2_eq]; exact slice2_axis1_apply 7 x0 _ r 0 _ rfl
theorem pay24_apply (x0 : Vec Ideal S2000x9 .f32) (r : Fin 2000) : k0_pay24 x0 (ix2 r 0) = invRow x0 r 2 2 := by
  unfold k0_pay24; rw [pay2_eq]; exact slice2_axis1_apply 8 x0 _ r 0 _ rfl

/-! ## The pointwise stages, at an index -/

theorem pay25_apply (x0 : Vec Ideal S2000x9 .f32) (x1 : Vec Ideal S2000x12 .f32) (i : S2000x1.Idx) :
    k0_pay25 x0 x1 i = MeshLoss.acc3 cZ (k0_pay16 x0 i) (k0_pay7 x1 i) (k0_pay17 x0 i) (k0_pay10 x1 i) (k0_pay18 x0 i) (k0_pay13 x1 i) := rfl
theorem pay26_apply (x0 : Vec Ideal S2000x9 .f32) (x1 : Vec Ideal S2000x12 .f32) (i : S2000x1.Idx) :
    k0_pay26 x0 x1 i = (cZ + k0_pay16 x0 i * k0_pay8 x1 i) + k0_pay17 x0 i * k0_pay11 x1 i := rfl
theorem pay27_apply (v25 v30 v48 : FVec Ideal S2000x1 .f32) (i : S2000x1.Idx) :
    k0_pay27 v25 v30 v48 i = v48 i + v30 i * v25 i := rfl
theorem pay28_apply (v15 v21 v27 v28 v29 v30 : FVec Ideal S2000x1 .f32) (i : S2000x1.Idx) :
    k0_pay28 v15 v21 v27 v28 v29 v30 i = MeshLoss.acc3 cZ (v28 i) (v15 i) (v29 i) (v21 i) (v30 i) (v27 i) := rfl
theorem pay29_apply (v11 v17 v23 v31 v32 v33 : FVec Ideal S2000x1 .f32) (i : S2000x1.Idx) :
    k0_pay29 v11 v17 v23 v31 v32 v33 i = MeshLoss.acc3 cZ (v31 i) (v11 i) (v32 i) (v17 i) (v33 i) (v23 i) := rfl
theorem pay30_apply (v13 v19 v25 v31 v32 v33 : FVec Ideal S2000x1 .f32) (i : S2000x1.Idx) :
    k0_pay30 v13 v19 v25 v31 v32 v33 i = MeshLoss.acc3 cZ (v31 i) (v13 i) (v32 i) (v19 i) (v33 i) (v25 i) := rfl
theorem pay31_apply (v15 v21 v27 v31 v32 v33 : FVec Ideal S2000x1 .f32) (i : S2000x1.Idx) :
    k0_pay31 v15 v21 v27 v31 v32 v33 i = MeshLoss.acc3 cZ (v31 i) (v15 i) (v32 i) (v21 i) (v33 i) (v27 i) := rfl
theorem pay32_apply (v11 v17 v23 v34 v35 v36 : FVec Ideal S2000x1 .f32) (i : S2000x1.Idx) :
    k0_pay32 v11 v17 v23 v34 v35 v36 i = MeshLoss.acc3 cZ (v34 i) (v11 i) (v35 i) (v17 i) (v36 i) (v23 i) := rfl
theorem pay33_apply (v13 v19 v25 v34 v35 v36 : FVec Ideal S2000x1 .f32) (i : S2000x1.Idx) :
    k0_pay33 v13 v19 v25 v34 v35 v36 i = MeshLoss.acc3 cZ (v34 i) (v13 i) (v35 i) (v19 i) (v36 i) (v25 i) := rfl
theorem pay34_apply (v15 v21 v27 v34 v35 v36 : FVec Ideal S2000x1 .f32) (i : S2000x1.Idx) :
    k0_pay34 v15 v21 v27 v34 v35 v36 i = MeshLoss.acc3 cZ (v34 i) (v15 i) (v35 i) (v21 i) (v36 i) (v27 i) := rfl
theorem pay35_apply (i : S2000x1.Idx) : k0_pay35 (F := Ideal) i = cZ := rfl
theorem pay36_apply (v43 v50 v57 v64 v71 v78 v85 v92 v99 v100 : FVec Ideal S2000x1 .f32) (i : S2000x1.Idx) :
    k0_pay36 v43 v50 v57 v64 v71 v78 v85 v92 v99 v100 i
      = ((v100 i + MeshLoss.wsq cO cO (MeshLoss.acc3 cZ (v43 i) (v43 i) (v64 i) (v64 i) (v85 i) (v85 i)))
          + MeshLoss.wsq cT cZ (MeshLoss.acc3 cZ (v43 i) (v50 i) (v64 i) (v71 i) (v85 i) (v92 i)))
          + MeshLoss.wsq cT cZ (MeshLoss.acc3 cZ (v43 i) (v57 i) (v64 i) (v78 i) (v85 i) (v99 i)) := rfl
theorem pay37_apply (v50 v71 v92 : FVec Ideal S2000x1 .f32) (i : S2000x1.Idx) :
    k0_pay37 v50 v71 v92 i
      = (MeshLoss.acc3 cZ (v50 i) (v50 i) (v71 i) (v71 i) (v92 i) (v92 i) - cO)
        * (MeshLoss.acc3 cZ (v50 i) (v50 i) (v71 i) (v71 i) (v92 i) (v92 i) - cO) := rfl

/-- The last stage's per-row value: the three remaining entries added to the partial sum `s`, the
    middle diagonal entry's square `q` weighted by one. -/
def lastRow (a01 a02 a11 a12 a21 a22 s q : EReal) : EReal :=
  ((s + cO * q) + MeshLoss.wsq cT cZ (MeshLoss.acc3 cZ a01 a02 a11 a12 a21 a22))
    + MeshLoss.wsq cO cO (MeshLoss.acc3 cZ a02 a02 a12 a12 a22 a22)

/-- The stored value: the accumulator plus the sum over the rows of the last stage's per-row value. -/
theorem pay38_apply (v50 v57 v71 v78 v92 v99 v139 v149 : FVec Ideal S2000x1 .f32) (acc : Vec Ideal S1x1x1 .f32)
    (j : S1x1x1.Idx) :
    k0_pay38 v50 v57 v71 v78 v92 v99 v139 v149 acc j
      = acc (ix3 0 0 0) + ∑ r : Fin 2000, lastRow (v50 (ix2 r 0)) (v57 (ix2 r 0)) (v71 (ix2 r 0)) (v78 (ix2 r 0))
          (v92 (ix2 r 0)) (v99 (ix2 r 0)) (v139 (ix2 r 0)) (v149 (ix2 r 0)) := by
  unfold k0_pay38
  refine (cast_2to3 _ _ j).trans ?_
  refine congrArg₂ (· + ·) (cast_3to2 _ _ _) ?_
  refine (cast_1to2 _ _ _).trans ?_
  refine (colSum _ _ _ _ _).trans ?_
  rfl

/-- One grid point's update at its one index. -/
theorem step_apply (x0 : Vec Ideal S2000x9 .f32) (x1 : Vec Ideal S2000x12 .f32) (acc : Vec Ideal S1x1x1 .f32)
    (j : S1x1x1.Idx) :
    step x0 x1 acc j
      = acc (ix3 0 0 0) + ∑ r : Fin 2000, MeshLoss.kerRow cZ cO cT (invRow x0 r) (vertRow x1 r) := by
  unfold step
  refine (pay38_apply _ _ _ _ _ _ _ _ _ j).trans ?_
  refine congrArg (acc (ix3 0 0 0) + ·) (Finset.sum_congr rfl fun r _ => ?_)
  simp only [pay36_apply, pay37_apply, pay35_apply, pay27_apply, pay28_apply, pay29_apply, pay30_apply, pay31_apply,
    pay32_apply, pay33_apply, pay34_apply, pay25_apply, pay26_apply,
    pay7_apply, pay8_apply, pay9_apply, pay10_apply, pay11_apply, pay12_apply, pay13_apply, pay14_apply, pay15_apply,
    pay16_apply, pay17_apply, pay18_apply, pay19_apply, pay20_apply, pay21_apply, pay22_apply, pay23_apply, pay24_apply]
  rfl

/-- The zero the first point stores reads zero. -/
theorem zeroAcc_apply (j : S1x1x1.Idx) : zeroAcc (F := Ideal) j = cZ := by
  show k0_pay1 (F := Ideal) j = cZ
  unfold k0_pay1
  exact cast_2to3 _ _ j

end Cert.KernelIdeal.Body

end
-- ==== Proof.Spec.lean ====
/-
  The result both programs compute, as one number of the two argument arrays.

  `lossAt X0 X1 n` is the loss of tetrahedron `n` (RowLaw.lean's `rowLoss` of its inverse edge matrix
  `X0[n, ·, ·]` and its four vertices `X1[n, ·, ·]`), zero past the last one; `total` sums it over
  the two million tetrahedra. The three float words of the streaming form denote 0, 1 and 2.
-/
import proofs.«139770_j53867479827007_1_alg».proof.Proof.RowLaw
import Idealize.ShloMosaic.Lib.ValueIdx
import Idealize.ShloMosaic.PureOps.Ideal.Laws

noncomputable section

open Idealize.ShloMosaic Idealize.ShloMosaic.ValueIdx

namespace MeshLoss

/-- The loss of tetrahedron `n`. -/
def lossAt (X0 : (⟨3, ![2000000, 3, 3]⟩ : Shape).Idx → EReal) (X1 : (⟨3, ![2000000, 4, 3]⟩ : Shape).Idx → EReal) (n : ℕ) : EReal :=
  if h : n < 2000000 then rowLoss (fun i j => X0 (ix3 ⟨n, h⟩ i j)) (fun v j => X1 (ix3 ⟨n, h⟩ v j)) else 0

/-- The sum of the losses of all tetrahedra. -/
def total (X0 : (⟨3, ![2000000, 3, 3]⟩ : Shape).Idx → EReal) (X1 : (⟨3, ![2000000, 4, 3]⟩ : Shape).Idx → EReal) : EReal :=
  ∑ n ∈ Finset.range 2000000, lossAt X0 X1 n

/-- The mean loss: the total, added to a zero as both programs' final reductions do, over the word 2·10⁶. -/
def mean (X0 : (⟨3, ![2000000, 3, 3]⟩ : Shape).Idx → EReal) (X1 : (⟨3, ![2000000, 4, 3]⟩ : Shape).Idx → EReal) :
    (⟨0, ![]⟩ : Shape).Idx → EReal :=
  Host.divf (F := Ideal) (fun _ => (0 : EReal) + total X0 X1) (constant (F := Ideal) ⟨0, ![]⟩ .f32 0x49F42400#32)

theorem word_zero : Ideal.ofBits .f32 0x00000000#32 = (0 : EReal) := Ideal.ofBits_zero_f32

theorem word_one : Ideal.ofBits .f32 0x3F800000#32 = (1 : EReal) := by
  simp [Ideal.ofBits, Ideal.ieee, -EReal.coe_mul]; norm_num

theorem word_two : Ideal.ofBits .f32 0x40000000#32 = (2 : EReal) := by
  simp [Ideal.ofBits, Ideal.ieee, -EReal.coe_mul]
  norm_num
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end MeshLoss

end
-- ==== Proof.Accum.lean ====
/-
  The kernel's output array, as sums of per-tetrahedron losses.

  The grid has 2 × 500 points; point `t` reads tetrahedra `2000 t … 2000 t + 1999` (the reshaped arguments'
  rows), so its block sum is `blockSum (lossAt X0 X1) 2000 t`. The accumulator is zeroed at the points
  ≡ 0 (mod 500) and otherwise carried, so after point `t` it holds the running sum of `t`'s half up to `t`
  (induction on the point); at the points ≡ 499 (mod 500) it is copied to the output block, which is
  element `t / 500` of the two-element result. Hence element `h` of the result is the sum of the 500 block
  sums of half `h`.
-/
import proofs.«139770_j53867479827007_1_alg».proof.Proof.StepValue
import proofs.«139770_j53867479827007_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen Cert.KernelIdeal.Body

variable (m : (ℓ : Loc nD τ sig) → Buf (Elt Ideal) ℓ)

/-- The two argument arrays on device `c`. -/
abbrev X0 (c : Dev nD) : S2000000x3x3.Idx → EReal := m ((c : Thread nD τ).loc main_arg0)
abbrev X1 (c : Dev nD) : S2000000x4x3.Idx → EReal := m ((c : Thread nD τ).loc main_arg1)

/-- The loss of tetrahedron `n` of device `c`'s arguments. -/
abbrev f (c : Dev nD) : ℕ → EReal := MeshLoss.lossAt (X0 m c) (X1 m c)

/-! ## The blocks the body reads -/

/-- The region finds the first argument reshaped to rows of nine, -/
theorem V_v0 (c : Dev nD) : (V m c main_v0 : S2000000x9.Idx → EReal)
    = shapeCast S2000000x9 (X0 m c) shapeCasts_S2000000x3x3_S2000000x9 := by
  show StableHlo.after hostOps0 (fun b => m (c, b)) (Proc.devRef .tc main_v0) = _
  after_results
  rfl

/-- and the second to rows of twelve. -/
theorem V_v1 (c : Dev nD) : (V m c main_v1 : S2000000x12.Idx → EReal)
    = shapeCast S2000000x12 (X1 m c) shapeCasts_S2000000x4x3_S2000000x12 := by
  show StableHlo.after hostOps0 (fun b => m (c, b)) (Proc.devRef .tc main_v1) = _
  after_results
  rfl

/-- Both inputs' block at point `t` is block row `t`; the output's block is element `t / 500`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 500 ∧ win0_2.index t (1 : Fin 3) = 0 ∧ win0_2.index t (2 : Fin 3) = 0 :=
  (by decide +kernel : ∀ t : Fin grid0.N, _)

theorem iblk0_apply (c : Dev nD) (t : Fin cfg0.N) (r : Fin 2000) (q : Fin 9) (n : Fin 2000000)
    (hn : n.val = t.val * 2000 + r.val) :
    (iblk m c 0 t : Vec Ideal S2000x9 .f32) (ix2 r q) = V m c main_v0 (ix2 n q) := by
  unfold iblk
  rw [View.read_apply]
  show V m c main_v0 _ = V m c main_v0 _
  refine congrArg (V m c main_v0) ?_
  funext a
  apply Fin.ext
  obtain ⟨e0, e1, -⟩ := idx_facts t
  match a with
  | ⟨0, _⟩ => show win0_0.index t (0 : Fin 2) * 2000 + 1 * r.val = n.val; rw [e0, hn]; omega
  | ⟨1, _⟩ => show win0_0.index t (1 : Fin 2) * 9 + 1 * q.val = q.val; rw [e1]; omega

theorem iblk1_apply (c : Dev nD) (t : Fin cfg0.N) (r : Fin 2000) (q : Fin 12) (n : Fin 2000000)
    (hn : n.val = t.val * 2000 + r.val) :
    (iblk m c 1 t : Vec Ideal S2000x12 .f32) (ix2 r q) = V m c main_v1 (ix2 n q) := by
  unfold iblk
  rw [View.read_apply]
  show V m c main_v1 _ = V m c main_v1 _
  refine congrArg (V m c main_v1) ?_
  funext a
  apply Fin.ext
  obtain ⟨-, -, e0, e1, -⟩ := idx_facts t
  match a with
  | ⟨0, _⟩ => show win0_1.index t (0 : Fin 2) * 2000 + 1 * r.val = n.val; rw [e0, hn]; omega
  | ⟨1, _⟩ => show win0_1.index t (1 : Fin 2) * 12 + 1 * q.val = q.val; rw [e1]; omega

/-- Row `r` of the first input's block at point `t` is the inverse matrix of tetrahedron `2000 t + r`: the
    reshape keeps the row-major position, `(n · 3 + i) · 3 + j = n · 9 + (3 i + j)`. -/
theorem invRow_iblk (c : Dev nD) (t : Fin cfg0.N) (r : Fin 2000) (i j : Fin 3) (h : t.val * 2000 + r.val < 2000000) :
    invRow (iblk m c 0 t) r i j = X0 m c (ix3 ⟨t.val * 2000 + r.val, h⟩ i j) := by
  unfold invRow
  rw [iblk0_apply m c t r _ ⟨t.val * 2000 + r.val, h⟩ rfl, V_v0]
  exact shapeCast_apply _ _ _ _ (by
    rw [Shape.rowMajor_val_two, Shape.rowMajor_val_three]
    show ((t.val * 2000 + r.val) * 3 + i.val) * 3 + j.val = (t.val * 2000 + r.val) * 9 + (3 * i.val + j.val)
    omega)

/-- Row `r` of the second input's block is its four vertices: `(n · 4 + v) · 3 + j = n · 12 + (3 v + j)`. -/
theorem vertRow_iblk (c : Dev nD) (t : Fin cfg0.N) (r : Fin 2000) (v : Fin 4) (j : Fin 3) (h : t.val * 2000 + r.val < 2000000) :
    vertRow (iblk m c 1 t) r v j = X1 m c (ix3 ⟨t.val * 2000 + r.val, h⟩ v j) := by
  unfold vertRow
  rw [iblk1_apply m c t r _ ⟨t.val * 2000 + r.val, h⟩ rfl, V_v1]
  exact shapeCast_apply _ _ _ _ (by
    rw [Shape.rowMajor_val_two, Shape.rowMajor_val_three]
    show ((t.val * 2000 + r.val) * 4 + v.val) * 3 + j.val = (t.val * 2000 + r.val) * 12 + (3 * v.val + j.val)
    omega)

/-- The rows of point `t` sum to block sum `t`: per row the streaming form is the loss (RowLaw.lean). -/
theorem pointSum (c : Dev nD) (t : Fin cfg0.N) :
    ∑ r : Fin 2000, MeshLoss.kerRow cZ cO cT (invRow (iblk m c 0 t) r) (vertRow (iblk m c 1 t) r)
      = MeshLoss.blockSum (f m c) 2000 t.val := by
  have hN : t.val < 1000 := lt_of_lt_of_eq t.isLt N_0
  unfold MeshLoss.blockSum
  rw [Finset.sum_range]
  refine Finset.sum_congr rfl fun r _ => ?_
  have h : t.val * 2000 + r.val < 2000000 := by have := r.isLt; omega
  show MeshLoss.kerRow (Ideal.ofBits .f32 0x00000000#32) (Ideal.ofBits .f32 0x3F800000#32) (Ideal.ofBits .f32 0x40000000#32) _ _ = _
  rw [MeshLoss.word_zero, MeshLoss.word_one, MeshLoss.word_two, MeshLoss.kerRow_eq]
  show _ = MeshLoss.lossAt (X0 m c) (X1 m c) (t.val * 2000 + r.val)
  unfold MeshLoss.lossAt
  rw [dif_pos h]
  congr 1
  · funext i j; exact invRow_iblk m c t r i j h
  · funext v j; exact vertRow_iblk m c t r v j h

/-- One point's update of an accumulator, at its one index. -/
theorem stepAt (c : Dev nD) (t : Fin cfg0.N) (acc : Vec Ideal S1x1x1 .f32) (j : S1x1x1.Idx) :
    step (iblk m c 0 t) (iblk m c 1 t) acc j = acc (ix3 0 0 0) + MeshLoss.blockSum (f m c) 2000 t.val :=
  (step_apply _ _ acc j).trans (congrArg (acc (ix3 0 0 0) + ·) (pointSum m c t))

/-! ## The accumulator after each point -/

/-- At the first point of a half the accumulator is left at `step` of the zero. -/
theorem scratch_A (c : Dev nD) (t : Fin cfg0.N) (h0 : t.val % 500 = 0) (h1 : ¬t.val % 500 = 499) :
    (outsAt0 m c t.val t.isLt).2 = step (iblk m c 0 t) (iblk m c 1 t) zeroAcc := by
  rw [outsAt0_A m c t h0 h1]
  exact sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At a middle point it is left at `step` of what the point before left. -/
theorem scratch_B (c : Dev nD) (t : Fin cfg0.N) (h0 : ¬t.val % 500 = 0) (h1 : ¬t.val % 500 = 499) :
    (outsAt0 m c t.val t.isLt).2 = step (iblk m c 0 t) (iblk m c 1 t)
      (outsAt0 m c (t.val - 1) (Nat.lt_of_le_of_lt (Nat.sub_le _ _) t.isLt)).2 := by
  rw [outsAt0_B m c t h0 h1]
  exact sout_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- At the last point of a half likewise, -/
theorem scratch_C (c : Dev nD) (t : Fin cfg0.N) (h0 : ¬t.val % 500 = 0) (h1 : t.val % 500 = 499) :
    (outsAt0 m c t.val t.isLt).2 = step (iblk m c 0 t) (iblk m c 1 t)
      (outsAt0 m c (t.val - 1) (Nat.lt_of_le_of_lt (Nat.sub_le _ _) t.isLt)).2 := by
  rw [outsAt0_C m c t h0 h1]
  exact sout_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output block receives the same value. -/
theorem output_C (c : Dev nD) (t : Fin cfg0.N) (h0 : ¬t.val % 500 = 0) (h1 : t.val % 500 = 499) :
    (outsAt0 m c t.val t.isLt).1 = step (iblk m c 0 t) (iblk m c 1 t)
      (outsAt0 m c (t.val - 1) (Nat.lt_of_le_of_lt (Nat.sub_le _ _) t.isLt)).2 := by
  rw [outsAt0_C m c t h0 h1]
  exact out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- A restart: the zero plus the block sum is the running sum at the start of a half. -/
theorem restart_val (c : Dev nD) (t : Fin cfg0.N) (h0 : t.val % 500 = 0) (j : S1x1x1.Idx) :
    step (iblk m c 0 t) (iblk m c 1 t) zeroAcc j = MeshLoss.running (f m c) 2000 500 t.val := by
  refine (stepAt m c t zeroAcc j).trans ?_
  rw [zeroAcc_apply, MeshLoss.running_restart _ _ _ _ h0]
  show Ideal.ofBits .f32 0x00000000#32 + _ = _
  rw [MeshLoss.word_zero, zero_add]

/-- A carried step: the running sum before plus the block sum is the running sum after. -/
theorem carry_val (c : Dev nD) (t : Fin cfg0.N) (h0 : ¬t.val % 500 = 0) (acc : Vec Ideal S1x1x1 .f32)
    (hacc : acc (ix3 0 0 0) = MeshLoss.running (f m c) 2000 500 (t.val - 1)) (j : S1x1x1.Idx) :
    step (iblk m c 0 t) (iblk m c 1 t) acc j = MeshLoss.running (f m c) 2000 500 t.val := by
  refine (stepAt m c t acc j).trans ?_
  rw [hacc, MeshLoss.running_step _ _ _ _ (by norm_num) h0]

/-- After point `n` the accumulator holds the running sum of its half; at the last point of a half so does
    the output block. -/
theorem outsAt_eq (c : Dev nD) : ∀ (n : ℕ) (h : n < cfg0.N),
    (outsAt0 m c n h).2 (ix3 0 0 0) = MeshLoss.running (f m c) 2000 500 n
    ∧ (n % 500 = 499 → ∀ j, (outsAt0 m c n h).1 j = MeshLoss.running (f m c) 2000 500 n) := by
  intro n
  induction n with
  | zero =>
    intro h
    have h0 : (⟨0, h⟩ : Fin cfg0.N).val % 500 = 0 := rfl
    have h1 : ¬(⟨0, h⟩ : Fin cfg0.N).val % 500 = 499 := by show ¬(0 : ℕ) % 500 = 499; decide
    refine ⟨?_, fun h9 => absurd h9 (by decide)⟩
    exact (congrFun (scratch_A m c ⟨0, h⟩ h0 h1) (ix3 0 0 0)).trans (restart_val m c ⟨0, h⟩ h0 _)
  | succ n ih =>
    intro h
    have hN : n + 1 < 1000 := lt_of_lt_of_eq h N_0
    obtain ⟨ihs, -⟩ := ih (Nat.lt_of_succ_lt h)
    by_cases h0 : (n + 1) % 500 = 0
    · have h1 : ¬(n + 1) % 500 = 499 := by omega
      refine ⟨?_, fun h9 => absurd h9 h1⟩
      exact (congrFun (scratch_A m c ⟨n + 1, h⟩ h0 h1) (ix3 0 0 0)).trans (restart_val m c ⟨n + 1, h⟩ h0 _)
    · by_cases h1 : (n + 1) % 500 = 499
      · refine ⟨?_, fun _ j => ?_⟩
        · exact (congrFun (scratch_C m c ⟨n + 1, h⟩ h0 h1) (ix3 0 0 0)).trans (carry_val m c ⟨n + 1, h⟩ h0 _ ihs _)
        · exact (congrFun (output_C m c ⟨n + 1, h⟩ h0 h1) j).trans (carry_val m c ⟨n + 1, h⟩ h0 _ ihs _)
      · refine ⟨?_, fun h9 => absurd h9 h1⟩
        exact (congrFun (scratch_B m c ⟨n + 1, h⟩ h0 h1) (ix3 0 0 0)).trans (carry_val m c ⟨n + 1, h⟩ h0 _ ihs _)

/-! ## The output array -/

/-- The two-element result: element `h` is the sum of the 500 block sums of half `h`. -/
def halves (c : Dev nD) : S2x1x1.Idx → EReal :=
  fun i => ∑ s ∈ Finset.range 500, MeshLoss.blockSum (f m c) 2000 ((i 0).val * 500 + s)

/-- What a write-back point writes is its block of `halves`. -/
theorem flushed_eq (c : Dev nD) (t : Fin cfg0.N) (hf : (cfg0.win 2).flush t = true) :
    (dats m 0 c).flushed 2 t = ((cfg0.win 2).blk t).view.read (Elt Ideal) (halves m c) := by
  have h9 : t.val % 500 = 499 := (flush0_2 t).mp hf
  have hN : t.val < 1000 := lt_of_lt_of_eq t.isLt N_0
  show (cfg0.win 2).cut (grid0.coords t) ((dats m 0 c).after 2 t) = _
  rw [after0_2]
  funext y
  rw [View.read_apply]
  obtain ⟨-, -, -, -, e0, e1, e2⟩ := idx_facts t
  have hy : (y 0).val < 1 := (y 0).isLt
  refine ((outsAt_eq m c t.val t.isLt).2 h9 y).trans ?_
  have e : t.val = t.val / 500 * 500 + (500 - 1) := by omega
  refine (congrArg (MeshLoss.running (f m c) 2000 500) e).trans ?_
  rw [MeshLoss.running_last _ _ _ _ (by norm_num)]
  show _ = ∑ s ∈ Finset.range 500, MeshLoss.blockSum (f m c) 2000 ((win0_2.index t (0 : Fin 3) * 1 + 1 * (y 0).val) * 500 + s)
  rw [e0, show t.val / 500 * 1 + 1 * (y 0).val = t.val / 500 from by omega]

/-- The two write-back points cover the two elements. -/
theorem cover (c : Dev nD) (i : S2x1x1.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hN : cfg0.N = 1000 := N_0
  let t : Fin cfg0.N := ⟨(i 0).val * 500 + 499, by omega⟩
  have ht : t.val = (i 0).val * 500 + 499 := rfl
  refine ⟨t, (flush0_2 t).mpr (by rw [ht]; omega), ?_⟩
  show i ∈ ((View.whole main_v2).slice (win0_2.rect t)).set
  rw [View.set_slice_whole, Rect.mem_set_unit]
  obtain ⟨-, -, -, -, e0, e1, e2⟩ := idx_facts t
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

/-- So the kernel's result array ends holding `halves`. -/
theorem final (c : Dev nD) : (dats m 0 c).arrAt 2 cfg0.N = halves m c :=
  (dats m 0 c).arrAt_eq_of_cover 2 (halves m c) (flushed_eq m c) (cover c)

end Cert.KernelIdeal.Arr

end
-- ==== Proof.KernelValue.lean ====
/-
  The kernel's result: the total loss over two million.

  After the region the program adds the two elements of the output array to a zero and divides by
  2·10⁶. The two halves are the 500 block sums each, i.e. the 1000 block sums of 2000 tetrahedra, i.e. the
  sum over all 2 000 000 tetrahedra (regrouping a sum over consecutive naturals into blocks, RowLaw.lean).
-/
import proofs.«139770_j53867479827007_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen Cert.KernelIdeal.Body

variable (m : (ℓ : Loc nD τ sig) → Buf (Elt Ideal) ℓ) (ρ : Dev nD → PrngReg)

/-- The two halves add up to the total. -/
theorem halves_sum (c : Dev nD) : ∑ i : S2x1x1.Idx, halves m c i = MeshLoss.total (X0 m c) (X1 m c) := by
  rw [MeshLoss.sum_idx3]
  simp only [Fin.sum_univ_one]
  show ∑ a : Fin 2, ∑ s ∈ Finset.range 500, MeshLoss.blockSum (f m c) 2000 (a.val * 500 + s) = _
  rw [← Finset.sum_range (fun a => ∑ s ∈ Finset.range 500, MeshLoss.blockSum (f m c) 2000 (a * 500 + s)),
    ← MeshLoss.sum_range_mul_blocks (fun t => MeshLoss.blockSum (f m c) 2000 t) 2 500]
  unfold MeshLoss.blockSum
  rw [← MeshLoss.sum_range_mul_blocks (f m c) (2 * 500) 2000]
  rfl

/-- What the lines after the region leave in the result buffer. -/
theorem tail_eq (c : Dev nD) :
    Pipeline.afterTail₀ cfgs (dats m) 0 (V0 m) [hostOps1] c main_v4 = MeshLoss.mean (X0 m c) (X1 m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = halves m c := (Pipeline.withArrays_arr spec0 launch0.win.arr_inj c _ _ 2).trans (final m c)
  rw [e]
  unfold MeshLoss.mean
  refine congrArg (Host.divf (F := Ideal) · _) ?_
  funext i
  simp only [Host.reduceAdd, Ideal.hostReduceAdd_def]
  refine (Ideal.hostReduceAdd_total reducesTo_S2x1x1_S_d0_1_2 (fun b => b.elim0) (halves m c) _ i).trans ?_
  rw [halves_sum]
  show Ideal.ofBits .f32 0x00000000#32 + _ = _
  rw [MeshLoss.word_zero]

/-- The kernel's run, read: the result buffer ends at the mean loss of the arguments, which end unchanged. -/
theorem run : θ_run defs (onTc (τ := τ) (main (F := Ideal))) ⟨m, fun _ => 0, ρ⟩ fun r => ∀ c : Dev nD,
      r.2.mem ((c.tc : Thread nD τ).loc main_v4) = MeshLoss.mean (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Arr

end
-- ==== Proof.RefValue.lean ====
/-
  The reference, read as the same number.

  Stage by stage the reference forms, for tetrahedron `n`, the edge matrix (vertex `j + 1` minus vertex 0),
  the affine map as a contraction over the middle index, its Gram matrix as a contraction over the first,
  subtracts the identity (an integer comparison of two iotas turned into 0 or 1) and squares; the final
  reduction adds every entry to a zero. Entry `(n, i, k)` is RowLaw.lean's `dev`, so the sum over all
  entries is the sum over the tetrahedra of `rowLoss`: Spec.lean's `total`.
-/
import proofs.«139770_j53867479827007_1_alg».proof.Proof.Gen.ReferenceIdeal.Read
import proofs.«139770_j53867479827007_1_alg».proof.Proof.Spec

noncomputable section

open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read

variable (x0 : S2000000x3x3.Idx → EReal) (x1 : S2000000x4x3.Idx → EReal)

/-- Tetrahedron `n`'s inverse edge matrix and vertices. -/
abbrev aOf (n : Fin 2000000) : Fin 3 → Fin 3 → EReal := fun i j => x0 (ix3 n i j)
abbrev bOf (n : Fin 2000000) : Fin 4 → Fin 3 → EReal := fun v j => x1 (ix3 n v j)

theorem v3_apply (n : Fin 2000000) (j k : Fin 3) :
    val_main_v3 (F := Ideal) x1 (ix3 n j k) = MeshLoss.edge (bOf x1 n) j k := by
  rw [val_main_v3_apply, val_main_v0_apply, val_main_v2_apply, val_main_v1_apply]
  have e0 : idx_main_v0 (ix3 n j k) = ix3 n j.succ k := funext fun a => Fin.ext (by
    match a with
    | ⟨0, _⟩ => rfl
    | ⟨1, _⟩ => show 1 + j.val = j.val + 1; omega
    | ⟨2, _⟩ => rfl)
  have e1 : idx_main_v1 (idx_main_v2 (ix3 n j k)) = ix3 n 0 k := funext fun a => Fin.ext (by
    match a with
    | ⟨0, _⟩ => rfl
    | ⟨1, _⟩ => rfl
    | ⟨2, _⟩ => rfl)
  rw [e0, e1]
  rfl

theorem v4_apply (n : Fin 2000000) (i k : Fin 3) :
    val_main_v4 (F := Ideal) x0 x1 (ix3 n i k) = MeshLoss.aff (aOf x0 n) (bOf x1 n) i k := by
  rw [val_main_v4_apply]
  unfold MeshLoss.aff
  refine Finset.sum_congr rfl fun j _ => ?_
  have el : lidx_main_v4 (ix3 n i k) j = ix3 n i j := funext fun a => Fin.ext (by
    match a with
    | ⟨0, _⟩ => rfl
    | ⟨1, _⟩ => rfl
    | ⟨2, _⟩ => rfl)
  have er : ridx_main_v4 (ix3 n i k) j = ix3 n j k := funext fun a => Fin.ext (by
    match a with
    | ⟨0, _⟩ => rfl
    | ⟨1, _⟩ => rfl
    | ⟨2, _⟩ => rfl)
  rw [el, er, v3_apply]

theorem v5_apply (n : Fin 2000000) (i k : Fin 3) :
    val_main_v5 (F := Ideal) x0 x1 (ix3 n i k) = MeshLoss.gram (MeshLoss.aff (aOf x0 n) (bOf x1 n)) i k := by
  rw [val_main_v5_apply]
  unfold MeshLoss.gram
  refine Finset.sum_congr rfl fun j _ => ?_
  have el : lidx_main_v5 (ix3 n i k) j = ix3 n j i := funext fun a => Fin.ext (by
    match a with
    | ⟨0, _⟩ => rfl
    | ⟨1, _⟩ => rfl
    | ⟨2, _⟩ => rfl)
  have er : ridx_main_v5 (ix3 n i k) j = ix3 n j k := funext fun a => Fin.ext (by
    match a with
    | ⟨0, _⟩ => rfl
    | ⟨1, _⟩ => rfl
    | ⟨2, _⟩ => rfl)
  rw [el, er, v4_apply, v4_apply]

/-- The identity matrix the reference subtracts. -/
theorem v13_apply (n : Fin 2000000) (i k : Fin 3) :
    val_main_v13 (F := Ideal) (ix3 n i k) = if i = k then 1 else 0 := by
  rw [val_main_v13_apply, val_main_v12_apply, val_main_v11_apply, val_main_v10_apply, val_main_v9_apply,
    val_main_v6_apply, val_main_v7_apply, val_main_v8_apply, val_main_c_apply]
  show (((IntOp.cmpi .eq (IntOp.addi (BitVec.ofNat 32 i.val) 0#32) (BitVec.ofNat 32 k.val)).toNat : ℝ) : EReal) = _
  have hb : IntOp.cmpi .eq (IntOp.addi (BitVec.ofNat 32 i.val) 0#32) (BitVec.ofNat 32 k.val) = if i = k then 1#1 else 0#1 := by
    fin_cases i <;> fin_cases k <;> decide
  rw [hb]
  by_cases h : i = k
  · rw [if_pos h, if_pos h]; simp
  · rw [if_neg h, if_neg h]; simp

theorem v15_apply (n : Fin 2000000) (i k : Fin 3) :
    val_main_v15 (F := Ideal) x0 x1 (ix3 n i k) = MeshLoss.dev (MeshLoss.aff (aOf x0 n) (bOf x1 n)) i k := by
  rw [val_main_v15_apply, val_main_v14_apply, v5_apply, v13_apply]
  rfl

/-- The sum of all squared deviations is the total loss. -/
theorem v16_eq : val_main_v16 (F := Ideal) x0 x1 = fun _ => (0 : EReal) + MeshLoss.total x0 x1 := by
  funext i
  rw [val_main_v16_apply, val_main_cst_apply]
  show Ideal.ofBits .f32 0x00000000#32 + _ = _
  rw [MeshLoss.word_zero, MeshLoss.sum_idx3]
  refine congrArg ((0 : EReal) + ·) ?_
  unfold MeshLoss.total
  rw [Finset.sum_range]
  refine Finset.sum_congr rfl fun n _ => ?_
  unfold MeshLoss.lossAt
  rw [dif_pos n.isLt]
  unfold MeshLoss.rowLoss
  refine Finset.sum_congr rfl fun i _ => Finset.sum_congr rfl fun k _ => ?_
  exact v15_apply x0 x1 n i k

/-- So the reference's result is the mean loss. -/
theorem v17_eq : val_main_v17 (F := Ideal) x0 x1 = MeshLoss.mean x0 x1 := by
  unfold val_main_v17 MeshLoss.mean
  rw [v16_eq]
  rfl

end Cert.ReferenceIdeal.RefValue

end
-- ==== Proof.lean ====
/-
  The mesh loss: a streaming kernel against a whole-array reference, equal on the extended reals.

  For two million tetrahedra, with `inv` the inverse reference edge matrices and `mesh_out` the deformed
  vertices, both programs compute the mean over the tetrahedra of `‖AᵀA − I‖²`, `A = inv · (edges of
  mesh_out)`. The reference forms every 3×3 matrix with two contractions and sums all nine squared
  entries of all tetrahedra at once. The kernel walks the tetrahedra in 2 × 500 blocks of 2000, computes
  per tetrahedron only the six entries on or above the diagonal (doubling the three above it), sums each
  block, carries a running sum per half of the grid, and the program adds the two halves and divides.

  The two agree at the exact instance with no finiteness needed: the Gram matrix is symmetric because
  multiplication commutes, `2 · y = y + y` holds also at the infinities, and every regrouping of the big
  sum is associativity and commutativity of addition on the extended reals (RowLaw.lean). Spec.lean
  names the common value; StepValue.lean and Accum.lean read the kernel's blocks, its per-point update
  and its carried accumulator (by induction on the grid point) off the runs of its three control cases;
  KernelValue.lean reads the lines after the region; RefValue.lean reads the reference stage by stage.
  The three frames are the programs' runs with the values dropped; the idealization rewrote nothing.
-/
import proofs.«139770_j53867479827007_1_alg».proof.Defs
import proofs.«139770_j53867479827007_1_alg».proof.Proof.Gen.Kernel
import proofs.«139770_j53867479827007_1_alg».proof.Proof.Gen.Kernel.Skeleton
import proofs.«139770_j53867479827007_1_alg».proof.Proof.Gen.Kernel.Launch
import proofs.«139770_j53867479827007_1_alg».proof.Proof.Gen.Kernel.Points
import proofs.«139770_j53867479827007_1_alg».proof.Proof.Gen.Kernel.Frame
import proofs.«139770_j53867479827007_1_alg».proof.Proof.Gen.KernelIdeal
import proofs.«139770_j53867479827007_1_alg».proof.Proof.Gen.KernelIdeal.Skeleton
import proofs.«139770_j53867479827007_1_alg».proof.Proof.Gen.KernelIdeal.Launch
import proofs.«139770_j53867479827007_1_alg».proof.Proof.Gen.KernelIdeal.Points
import proofs.«139770_j53867479827007_1_alg».proof.Proof.Gen.KernelIdeal.Frame
import proofs.«139770_j53867479827007_1_alg».proof.Proof.Gen.ReferenceIdeal
import proofs.«139770_j53867479827007_1_alg».proof.Proof.Gen.ReferenceIdeal.Run
import proofs.«139770_j53867479827007_1_alg».proof.Proof.Gen.ReferenceIdeal.Read
import proofs.«139770_j53867479827007_1_alg».proof.Proof.Gen.Pre_finite_inputs
import proofs.«139770_j53867479827007_1_alg».proof.Proof.KernelValue
import proofs.«139770_j53867479827007_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments both programs end at the mean loss of those arguments. -/
theorem algebraic : Cert.algebraic_KernelIdeal_ReferenceIdeal := by
  intro m ρ m' ρ' _ hagree
  refine ⟨fun c => MeshLoss.mean (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.v17_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
